-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .f32⟩
  | .hbm, ⟨26, _⟩ => ⟨S50000x128, .f32⟩
  | .hbm, ⟨27, _⟩ => ⟨S640000x1, .i32⟩
  | .hbm, ⟨28, _⟩ => ⟨S50000x128, .f32⟩
  | .hbm, ⟨29, _⟩ => ⟨S_, .f32⟩
  | .hbm, ⟨30, _⟩ => ⟨S640000, .f32⟩
  | .hbm, ⟨31, _⟩ => ⟨S_, .f32⟩
  | .hbm, ⟨32, _⟩ => ⟨S50000, .f32⟩
  | .hbm, ⟨33, _⟩ => ⟨S640000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S50000x128, .f32⟩
  | .hbm, ⟨54, _⟩ => ⟨S640000x1, .i32⟩
  | .hbm, ⟨55, _⟩ => ⟨S50000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S50000, .f32⟩
  | .hbm, ⟨60, _⟩ => ⟨S640000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S50000, .f32⟩
  | .hbm, ⟨65, _⟩ => ⟨S640000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The two-layer program's run with its result named.

  The program is four stretches in a row: host operations, the first layer's kernel over its ten row blocks, host
  operations again, the second layer's kernel. The launch below is the one that proves the arguments are kept, read
  once more at the result buffer: after every weakly fair execution the result array holds what the last stretch's
  boundary contents `W4` hold there, and the eight arguments are as launched.
-/
import proofs.«178133_j7567732375847_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result array ends at the last boundary's contents and
    the arguments end as launched. -/
theorem run_main : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibTwoBranch.lean ====
/-
  One layer of a two-branch graph network, read at an entry, over the extended reals.

  A node p has its own feature row X(p, ·) and the mean A(p, ·) of its in-neighbours' rows. The layer sends the pair to

      out(p, j) = (∑ c, A(p, c) · Wl(c, j)  +  ∑ c, X(p, c) · Wr(c, j))  +  b(j),

  optionally clamped below at zero. A second program may add the bias between the two products,

      out'(p, j) = (∑ c, A(p, c) · Wl(c, j)  +  b(j))  +  ∑ c, X(p, c) · Wr(c, j).

  Addition of extended reals is commutative and associative (−∞ absorbs), so the two agree at every entry with no
  finiteness asked of anything: `biasLast_eq_biasMiddle`. An entry reads only row p of the two feature arrays, column j of
  the two weights and entry j of the bias, so arrays of different heights that agree there give the same entry
  (`linAt_congr`: a row block of a tall array against the array itself).
-/
import Idealize.ShloMosaic.PureOps.Ideal.Laws
import Idealize.ShloMosaic.Lib.ValueIdx

noncomputable section

open scoped BigOperators

namespace Cert.Sage

open Idealize.ShloMosaic Idealize.ShloMosaic.ValueIdx

variable {R K N : Nat}

/-- Entry (p, j) of the layer with the bias added last: (A·Wl + X·Wr) + b. -/
def linAt (A X : (⟨2, ![R, K]⟩ : Shape).Idx → EReal) (Wl Wr : (⟨2, ![K, N]⟩ : Shape).Idx → EReal)
    (b : Fin N → EReal) (p : Fin R) (j : Fin N) : EReal :=
  ((∑ c : Fin K, A (ix2 p c) * Wl (ix2 c j)) + ∑ c : Fin K, X (ix2 p c) * Wr (ix2 c j)) + b j

/-- Entry (p, j) of the layer with the bias added between the two products: (A·Wl + b) + X·Wr. -/
def linMidAt (A X : (⟨2, ![R, K]⟩ : Shape).Idx → EReal) (Wl Wr : (⟨2, ![K, N]⟩ : Shape).Idx → EReal)
    (b : Fin N → EReal) (p : Fin R) (j : Fin N) : EReal :=
  ((∑ c : Fin K, A (ix2 p c) * Wl (ix2 c j)) + b j) + ∑ c : Fin K, X (ix2 p c) * Wr (ix2 c j)

/-- The two orders of adding the bias give the same entry: addition on the extended reals is a commutative monoid. -/
theorem biasLast_eq_biasMiddle (A X : (⟨2, ![R, K]⟩ : Shape).Idx → EReal) (Wl Wr : (⟨2, ![K, N]⟩ : Shape).Idx → EReal)
    (b : Fin N → EReal) (p : Fin R) (j : Fin N) : linAt A X Wl Wr b p j = linMidAt A X Wl Wr b p j := by
  unfold linAt linMidAt
  exact add_right_comm _ _ _

/-- The clamp below at zero, the zero kept as the f32 word it is printed as. -/
def clamp0 (e : EReal) : EReal := max e (Ideal.ofBits .f32 0x00000000#32)

/-- The layer as an array over all nodes: entry (p, j) is `linAt`, clamped at zero when `relu` is set. -/
def layer (relu : Bool) (A X : (⟨2, ![R, K]⟩ : Shape).Idx → EReal) (Wl Wr : (⟨2, ![K, N]⟩ : Shape).Idx → EReal)
    (b : Fin N → EReal) : (⟨2, ![R, N]⟩ : Shape).Idx → EReal :=
  fun i => if relu then clamp0 (linAt A X Wl Wr b (i 0) (i 1)) else linAt A X Wl Wr b (i 0) (i 1)

/-- The layer read at an entry. -/
theorem layer_apply (relu : Bool) (A X : (⟨2, ![R, K]⟩ : Shape).Idx → EReal) (Wl Wr : (⟨2, ![K, N]⟩ : Shape).Idx → EReal)
    (b : Fin N → EReal) (p : Fin R) (j : Fin N) :
    layer relu A X Wl Wr b (ix2 p j) = if relu then clamp0 (linAt A X Wl Wr b p j) else linAt A X Wl Wr b p j := rfl

/-- An entry of the layer depends only on row p of the two feature arrays, column j of the two weights and entry j of
    the bias: arrays of different heights that agree there give the same entry. -/
theorem linAt_congr {R R' K N : Nat} (A X : (⟨2, ![R, K]⟩ : Shape).Idx → EReal) (A' X' : (⟨2, ![R', K]⟩ : Shape).Idx → EReal)
    (Wl Wr Wl' Wr' : (⟨2, ![K, N]⟩ : Shape).Idx → EReal) (b b' : Fin N → EReal) (p : Fin R) (p' : Fin R') (j : Fin N)
    (hA : ∀ k, A (ix2 p k) = A' (ix2 p' k)) (hX : ∀ k, X (ix2 p k) = X' (ix2 p' k))
    (hl : ∀ k, Wl (ix2 k j) = Wl' (ix2 k j)) (hr : ∀ k, Wr (ix2 k j) = Wr' (ix2 k j)) (hb : b j = b' j) :
    linAt A X Wl Wr b p j = linAt A' X' Wl' Wr' b' p' j := by
  unfold linAt
  rw [hb]
  simp only [hA, hX, hl, hr]

end Cert.Sage

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KernelBody.lean ====
/-
  What the layer kernel stores at one entry of its output block, at the ideal values.

  The body loads a block of 5000 node rows of the aggregated features A and of the nodes' own features X, the two
  128×128 weight matrices and the 1×128 bias row, and stores (A·Wl + X·Wr) + bias — in the first layer clamped below
  at zero. The format changes are the identity at the ideal values, each product into the zero accumulator is the sum
  over the contracted lane, and the broadcast bias row contributes its entry of the output's lane.
-/
import proofs.«178133_j7567732375847_1_alg».proof.Proof.Gen.KernelIdeal.Skeleton
import proofs.«178133_j7567732375847_1_alg».proof.Proof.LibTwoBranch
import proofs.«178133_j7567732375847_1_alg».proof.Proof.LibPlainDot
import proofs.«178133_j7567732375847_1_alg».proof.Proof.LibRowVector
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Sage

/-- The bias row's entries as a function of the lane. -/
def rowOf (b : Vec Ideal S1x128 .f32) : Fin 128 → EReal := fun k => b (ix2 (0 : Fin 1) k)

/-- First layer: the stored entry (p, j) is the clamped layer entry of the loaded blocks. -/
theorem pay0_apply (x0 x1 : Vec Ideal S5000x128 .f32) (x2 x3 : Vec Ideal S128x128 .f32) (x4 : Vec Ideal S1x128 .f32)
    (p : Fin 5000) (j : Fin 128) :
    k0_pay1 (F := Ideal) x0 x1 x2 x3 x4 (ix2 p j) = clamp0 (linAt x0 x1 x2 x3 (rowOf x4) p j) := by
  unfold k0_pay1
  simp only [matmul]
  rw [maximumf_apply, addf_apply, addf_apply, broadcast_apply,
    PlainDot.matmul_zero_apply dot_S5000x128_S128x128_S5000x128_1_0_0_1_n_n rfl,
    PlainDot.matmul_zero_apply dot_S5000x128_S128x128_S5000x128_1_0_0_1_n_n rfl, RowVector.broadcastTo_row (by decide)]
  simp only [shapeCast_self, truncf_apply]
  rfl

/-- Second layer: the stored entry (p, j) is the layer entry of the loaded blocks, with no clamp. -/
theorem pay1_apply (x0 x1 : Vec Ideal S5000x128 .f32) (x2 x3 : Vec Ideal S128x128 .f32) (x4 : Vec Ideal S1x128 .f32)
    (p : Fin 5000) (j : Fin 128) :
    k1_pay1 (F := Ideal) x0 x1 x2 x3 x4 (ix2 p j) = linAt x0 x1 x2 x3 (rowOf x4) p j := by
  unfold k1_pay1
  simp only [matmul]
  rw [addf_apply, addf_apply,
    PlainDot.matmul_zero_apply dot_S5000x128_S128x128_S5000x128_1_0_0_1_n_n rfl,
    PlainDot.matmul_zero_apply dot_S5000x128_S128x128_S5000x128_1_0_0_1_n_n rfl, RowVector.broadcastTo_row (by decide)]
  simp only [shapeCast_self, truncf_apply]
  rfl

end Cert.KernelIdeal.Body

end
-- ==== Proof.KernelBlocks.lean ====
/-
  From row blocks to the whole array, for each of the two layer kernels.

  Each kernel runs over ten grid points; point t loads rows 5000·t … 5000·t + 4999 of the aggregated features and of the
  nodes' own features, the whole weight matrices and bias row, and writes back the same rows of the output. What a
  point writes back is therefore the row block of ONE function of the whole arrays — the layer of the specification — and
  the ten blocks tile the 50000 rows, so after the region the output array is that layer of the arrays the region was
  entered with, whatever they are.
-/
import proofs.«178133_j7567732375847_1_alg».proof.Proof.Gen.KernelIdeal.Frame
import proofs.«178133_j7567732375847_1_alg».proof.Proof.KernelBody
import Idealize.ShloMosaic.Lib.Pipeline.Value

set_option maxRecDepth 16384

noncomputable section

open scoped BigOperators

namespace Cert.KernelIdeal.Blocks

open Cert.KernelIdeal Cert.KernelIdeal.Gen Cert.KernelIdeal.Body Cert.Sage
open Idealize.ShloMosaic Idealize.ShloMosaic.TcCoe Idealize.ShloMosaic.ValueIdx
open Idealize.SL Idealize.SL.Sem
open Idealize.ShloMosaic.Pipeline (Dat Cfg Window)

-- the buffer contents when a region is entered: a parameter, as in the frame
variable (V : (c : Dev nD) → (b : Ref sig .tc) → Buf (Elt Ideal) ((c : Thread nD τ).loc b))

theorem hz : (![0, 0] : Fin 2 → Nat) = fun _ => 0 := funext fun a => by fin_cases a <;> rfl

/-! ## Layer one: region 0 -/

/-- The printed index maps over the ten grid points: the two row-blocked inputs and the output sit at row block `t`,
    lane block 0; the weights and the bias row are their whole arrays at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is row block `t` of the layer of the arrays as the region finds them: entry (p, j) of
    the block is the layer's entry at row 5000·t + p, whose sums read row p of the two loaded row blocks. -/
theorem flushed0_eq (c : Dev nD) (t : Fin cfg0.N) :
    (dat0 V c).flushed 5 t = ((cfg0.win 5).blk t).view.read (Elt Ideal) (layer true (V c main_v26) (V c main_arg0) (V c main_v4) (V c main_v5) (rowOf (V c main_v27))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  have ht : t.val < 10 := Nat.lt_of_lt_of_eq t.isLt N_0
  funext y
  obtain ⟨p, j, rfl⟩ : ∃ (p : Fin 5000) (j : Fin 128), y = ix2 p j := ⟨y 0, y 1, eq_ix2 y⟩
  have hp : p.val < 5000 := p.isLt
  have hr : t.val * 5000 + p.val < 50000 := by omega
  show k0_pay1 (iblk0 V c 0 t) (iblk0 V c 1 t) (iblk0 V c 2 t) (iblk0 V c 3 t) (iblk0 V c 4 t) (ix2 p j)
      = (layer true (V c main_v26) (V c main_arg0) (V c main_v4) (V c main_v5) (rowOf (V c main_v27))) (((cfg0.win 5).blk t).view.emb (ix2 p j))
  have hemb : ((cfg0.win 5).blk t).view.emb (ix2 p j) = ix2 (⟨t.val * 5000 + p.val, hr⟩ : Fin 50000) j := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * j.val = j.val; omega
  rw [hemb, layer_apply, pay0_apply]
  refine congrArg clamp0 ?_
  refine linAt_congr _ _ _ _ _ _ _ _ _ _ p _ j (fun k => ?_) (fun k => ?_) (fun k => ?_) (fun k => ?_) ?_
  · show V c main_v26 (((cfg0.win 0).blk t).view.emb (ix2 p k)) = V c main_v26 (ix2 (⟨t.val * 5000 + p.val, hr⟩ : Fin 50000) k)
    refine congrArg (V c main_v26) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg0 (((cfg0.win 1).blk t).view.emb (ix2 p k)) = V c main_arg0 (ix2 (⟨t.val * 5000 + p.val, hr⟩ : Fin 50000) k)
    refine congrArg (V c main_arg0) ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  · show V c main_v4 (((cfg0.win 2).blk t).view.emb (ix2 k j)) = V c main_v4 (ix2 k j)
    refine congrArg (V c main_v4) ?_
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  · show V c main_v5 (((cfg0.win 3).blk t).view.emb (ix2 k j)) = V c main_v5 (ix2 k j)
    refine congrArg (V c main_v5) ?_
    funext a; apply Fin.ext
    match a with
    | ⟨0, _⟩ => show win0_3.index t (0 : Fin 2) * 128 + 1 * k.val = k.val; omega
    | ⟨1, _⟩ => show win0_3.index t (1 : Fin 2) * 128 + 1 * j.val = j.val; omega
  · show V c main_v27 (((cfg0.win 4).blk t).view.emb (ix2 (0 : Fin 1) j)) = V c main_v27 (ix2 (0 : Fin 1) j)
    refine congrArg (V c main_v27) ?_
    funext a; apply Fin.ext
    match a with
    | ⟨0, _⟩ => show win0_4.index t (0 : Fin 2) * 1 + 1 * 0 = 0; omega
    | ⟨1, _⟩ => show win0_4.index t (1 : Fin 2) * 128 + 1 * j.val = j.val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every row of the output is in the block of the point numbered by the row's quotient by 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, by rw [show cfg0.N = 10 from N_0]; omega⟩, rfl⟩
  obtain ⟨e00, e01, e10, e11, e20, e21, e30, e31, e40, e41, e50, e51⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the layer of the arrays the region was entered with. -/
theorem final0 (c : Dev nD) : (dat0 V c).arrAt 5 cfg0.N = (layer true (V c main_v26) (V c main_arg0) (V c main_v4) (V c main_v5) (rowOf (V c main_v27))) :=
  (dat0 V c).arrAt_eq_of_cover 5 _ (fun t _ => flushed0_eq V c t) (cover0)

/-! ## Layer two: region 1 -/

/-- The printed index maps over the ten grid points: the two row-blocked inputs and the output sit at row block `t`,
    lane block 0; the weights and the bias row are their whole arrays at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is row block `t` of the layer of the arrays as the region finds them: entry (p, j) of
    the block is the layer's entry at row 5000·t + p, whose sums read row p of the two loaded row blocks. -/
theorem flushed1_eq (c : Dev nD) (t : Fin cfg1.N) :
    (dat1 V c).flushed 5 t = ((cfg1.win 5).blk t).view.read (Elt Ideal) (layer false (V c main_v47) (V c main_v28) (V c main_v6) (V c main_v7) (rowOf (V c main_v48))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  have ht : t.val < 10 := Nat.lt_of_lt_of_eq t.isLt N_1
  funext y
  obtain ⟨p, j, rfl⟩ : ∃ (p : Fin 5000) (j : Fin 128), y = ix2 p j := ⟨y 0, y 1, eq_ix2 y⟩
  have hp : p.val < 5000 := p.isLt
  have hr : t.val * 5000 + p.val < 50000 := by omega
  show k1_pay1 (iblk1 V c 0 t) (iblk1 V c 1 t) (iblk1 V c 2 t) (iblk1 V c 3 t) (iblk1 V c 4 t) (ix2 p j)
      = (layer false (V c main_v47) (V c main_v28) (V c main_v6) (V c main_v7) (rowOf (V c main_v48))) (((cfg1.win 5).blk t).view.emb (ix2 p j))
  have hemb : ((cfg1.win 5).blk t).view.emb (ix2 p j) = ix2 (⟨t.val * 5000 + p.val, hr⟩ : Fin 50000) j := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * j.val = j.val; omega
  rw [hemb, layer_apply, pay1_apply]
  show linAt _ _ _ _ _ p j = linAt _ _ _ _ _ _ j
  refine linAt_congr _ _ _ _ _ _ _ _ _ _ p _ j (fun k => ?_) (fun k => ?_) (fun k => ?_) (fun k => ?_) ?_
  · show V c main_v47 (((cfg1.win 0).blk t).view.emb (ix2 p k)) = V c main_v47 (ix2 (⟨t.val * 5000 + p.val, hr⟩ : Fin 50000) k)
    refine congrArg (V c main_v47) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v28 (((cfg1.win 1).blk t).view.emb (ix2 p k)) = V c main_v28 (ix2 (⟨t.val * 5000 + p.val, hr⟩ : Fin 50000) k)
    refine congrArg (V c main_v28) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v6 (((cfg1.win 2).blk t).view.emb (ix2 k j)) = V c main_v6 (ix2 k j)
    refine congrArg (V c main_v6) ?_
    funext a; apply Fin.ext
    match a with
    | ⟨0, _⟩ => show win1_2.index t (0 : Fin 2) * 128 + 1 * k.val = k.val; omega
    | ⟨1, _⟩ => show win1_2.index t (1 : Fin 2) * 128 + 1 * j.val = j.val; omega
  · show V c main_v7 (((cfg1.win 3).blk t).view.emb (ix2 k j)) = V c main_v7 (ix2 k j)
    refine congrArg (V c main_v7) ?_
    funext a; apply Fin.ext
    match a with
    | ⟨0, _⟩ => show win1_3.index t (0 : Fin 2) * 128 + 1 * k.val = k.val; omega
    | ⟨1, _⟩ => show win1_3.index t (1 : Fin 2) * 128 + 1 * j.val = j.val; omega
  · show V c main_v48 (((cfg1.win 4).blk t).view.emb (ix2 (0 : Fin 1) j)) = V c main_v48 (ix2 (0 : Fin 1) j)
    refine congrArg (V c main_v48) ?_
    funext a; apply Fin.ext
    match a with
    | ⟨0, _⟩ => show win1_4.index t (0 : Fin 2) * 1 + 1 * 0 = 0; omega
    | ⟨1, _⟩ => show win1_4.index t (1 : Fin 2) * 128 + 1 * j.val = j.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Every row of the output is in the block of the point numbered by the row's quotient by 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, htv⟩ : ∃ t : Fin cfg1.N, t.val = (i 0).val / 5000 :=
    ⟨⟨(i 0).val / 5000, by rw [show cfg1.N = 10 from N_1]; omega⟩, rfl⟩
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the layer of the arrays the region was entered with. -/
theorem final1 (c : Dev nD) : (dat1 V c).arrAt 5 cfg1.N = (layer false (V c main_v47) (V c main_v28) (V c main_v6) (V c main_v7) (rowOf (V c main_v48))) :=
  (dat1 V c).arrAt_eq_of_cover 5 _ (fun t _ => flushed1_eq V c t) (cover1)

end Cert.KernelIdeal.Blocks

end
-- ==== Proof.Aggregate.lean ====
/-
  The host operations the two programs share, named once in each program's own vocabulary.

  Both programs compute, from a feature array and the edge list, the mean of every node's in-neighbours' rows by the same
  line of host operations (slice the sources and the targets, normalise a negative source index, gather, scatter-add
  by target, count the in-degrees by a scatter-add of ones, divide by the larger of the count and one), and both
  transpose the four weight matrices. Nothing here opens those operations: the two spellings are one term up to the
  name of each shape and dimension record, so they are equal by definition, for every feature array and edge list.
-/
import proofs.«178133_j7567732375847_1_alg».proof.Proof.Gen.KernelIdeal
import proofs.«178133_j7567732375847_1_alg».proof.Proof.Gen.ReferenceIdeal
import Idealize.ShloMosaic.PureOps.Ideal.Laws

noncomputable section

namespace Cert.KernelIdeal.Agg

open Cert.KernelIdeal Cert.KernelIdeal.Facts₀ Idealize.ShloMosaic

/-- The source node of every edge: row 0 of the edge list. -/
def src (ei : (⟨S2x640000, .i32⟩ : BufTy).Contents (Elt Ideal)) : (⟨S640000, .i32⟩ : BufTy).Contents (Elt Ideal) :=
  shapeCast S640000 (extractStridedSlice S1x640000 ![0, 0] ei slices_S2x640000_S1x640000_0_0) shapeCasts_S1x640000_S640000

/-- The target node of every edge: row 1 of the edge list. -/
def dst (ei : (⟨S2x640000, .i32⟩ : BufTy).Contents (Elt Ideal)) : (⟨S640000, .i32⟩ : BufTy).Contents (Elt Ideal) :=
  shapeCast S640000 (extractStridedSlice S1x640000 ![1, 0] ei slices_S2x640000_S1x640000_1_0) shapeCasts_S1x640000_S640000

/-- The mean of the in-neighbours' feature rows: every edge's source row (a negative source index counted from the
    end) gathered, added into its target's row, and each row divided by the larger of its in-degree and one. -/
def aggOf (feat : (⟨S50000x128, .f32⟩ : BufTy).Contents (Elt Ideal)) (s d : (⟨S640000, .i32⟩ : BufTy).Contents (Elt Ideal)) :
    (⟨S50000x128, .f32⟩ : BufTy).Contents (Elt Ideal) :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 d)
      (Host.gather gather_S50000x128_S640000x1_S640000x128_1_0_n_n_0_1_1128 feat
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 50000#32))) s))))
    (broadcastInDim S50000x128 ![0, 1] bcast_S50000x1_S50000x128_0_1
      (broadcastInDim S50000x1 ![0] bcast_S50000_S50000x1_0
        (maximumf (F := Ideal)
          (Host.scatterAdd (F := Ideal) scatter_S50000_S640000x1_S640000_n_0_0_1
            (broadcastInDim S50000 ![] bcast_S_S50000 (constant (F := Ideal) S_ .f32 0x00000000#32))
            (broadcastInDim S640000x1 ![0] bcast_S640000_S640000x1_0 d)
            (broadcastInDim S640000 ![] bcast_S_S640000 (constant (F := Ideal) S_ .f32 0x3F800000#32)))
          (broadcastInDim S50000 ![] bcast_S_S50000 (constant (F := Ideal) S_ .f32 0x3F800000#32)))))

/-- The aggregation from the edge list as it is given: its two rows are the sources and the targets. -/
def agg (feat : (⟨S50000x128, .f32⟩ : BufTy).Contents (Elt Ideal)) (ei : (⟨S2x640000, .i32⟩ : BufTy).Contents (Elt Ideal)) :
    (⟨S50000x128, .f32⟩ : BufTy).Contents (Elt Ideal) := aggOf feat (src ei) (dst ei)

/-- A weight matrix transposed. -/
def tr (W : (⟨S128x128, .f32⟩ : BufTy).Contents (Elt Ideal)) : (⟨S128x128, .f32⟩ : BufTy).Contents (Elt Ideal) :=
  transpose S128x128 [1, 0] W transposes_S128x128_S128x128_1_0

end Cert.KernelIdeal.Agg

namespace Cert.ReferenceIdeal.Agg

open Cert.ReferenceIdeal Cert.ReferenceIdeal.Facts₀ Idealize.ShloMosaic

/-- The source node of every edge: row 0 of the edge list. -/
def src (ei : (⟨S2x640000, .i32⟩ : BufTy).Contents (Elt Ideal)) : (⟨S640000, .i32⟩ : BufTy).Contents (Elt Ideal) :=
  shapeCast S640000 (extractStridedSlice S1x640000 ![0, 0] ei slices_S2x640000_S1x640000_0_0) shapeCasts_S1x640000_S640000

/-- The target node of every edge: row 1 of the edge list. -/
def dst (ei : (⟨S2x640000, .i32⟩ : BufTy).Contents (Elt Ideal)) : (⟨S640000, .i32⟩ : BufTy).Contents (Elt Ideal) :=
  shapeCast S640000 (extractStridedSlice S1x640000 ![1, 0] ei slices_S2x640000_S1x640000_1_0) shapeCasts_S1x640000_S640000

/-- The mean of the in-neighbours' feature rows: every edge's source row (a negative source index counted from the
    end) gathered, added into its target's row, and each row divided by the larger of its in-degree and one. -/
def aggOf (feat : (⟨S50000x128, .f32⟩ : BufTy).Contents (Elt Ideal)) (s d : (⟨S640000, .i32⟩ : BufTy).Contents (Elt Ideal)) :
    (⟨S50000x128, .f32⟩ : BufTy).Contents (Elt Ideal) :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 d)
      (Host.gather gather_S50000x128_S640000x1_S640000x128_1_0_n_n_0_1_1128 feat
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 50000#32))) s))))
    (broadcastInDim S50000x128 ![0, 1] bcast_S50000x1_S50000x128_0_1
      (broadcastInDim S50000x1 ![0] bcast_S50000_S50000x1_0
        (maximumf (F := Ideal)
          (Host.scatterAdd (F := Ideal) scatter_S50000_S640000x1_S640000_n_0_0_1
            (broadcastInDim S50000 ![] bcast_S_S50000 (constant (F := Ideal) S_ .f32 0x00000000#32))
            (broadcastInDim S640000x1 ![0] bcast_S640000_S640000x1_0 d)
            (broadcastInDim S640000 ![] bcast_S_S640000 (constant (F := Ideal) S_ .f32 0x3F800000#32)))
          (broadcastInDim S50000 ![] bcast_S_S50000 (constant (F := Ideal) S_ .f32 0x3F800000#32)))))

/-- The aggregation from the edge list as it is given: its two rows are the sources and the targets. -/
def agg (feat : (⟨S50000x128, .f32⟩ : BufTy).Contents (Elt Ideal)) (ei : (⟨S2x640000, .i32⟩ : BufTy).Contents (Elt Ideal)) :
    (⟨S50000x128, .f32⟩ : BufTy).Contents (Elt Ideal) := aggOf feat (src ei) (dst ei)

/-- A weight matrix transposed. -/
def tr (W : (⟨S128x128, .f32⟩ : BufTy).Contents (Elt Ideal)) : (⟨S128x128, .f32⟩ : BufTy).Contents (Elt Ideal) :=
  transpose S128x128 [1, 0] W transposes_S128x128_S128x128_1_0

end Cert.ReferenceIdeal.Agg

namespace Cert.Shared

open Idealize.ShloMosaic

/-- The reference's aggregation is the kernel program's, on every feature array and edge list. -/
theorem agg_eq (feat : (⟨Cert.ReferenceIdeal.S50000x128, .f32⟩ : BufTy).Contents (Elt Ideal))
    (ei : (⟨Cert.ReferenceIdeal.S2x640000, .i32⟩ : BufTy).Contents (Elt Ideal)) :
    Cert.ReferenceIdeal.Agg.agg feat ei = Cert.KernelIdeal.Agg.agg feat ei := rfl

/-- The reference's transpose is the kernel program's. -/
theorem tr_eq (W : (⟨Cert.ReferenceIdeal.S128x128, .f32⟩ : BufTy).Contents (Elt Ideal)) :
    Cert.ReferenceIdeal.Agg.tr W = Cert.KernelIdeal.Agg.tr W := rfl

end Cert.Shared

end
-- ==== Proof.KernelValue.lean ====
/-
  The kernel program's result as one function of its arguments.

  Read backwards from the result: the second kernel leaves its output array at the unclamped layer of the arrays it was
  entered with; those are what the second stretch of host operations computes — the aggregation of the hidden features
  along the same edges, the transposed second-layer weights, the second bias as a row — from what the first kernel
  left; the first kernel leaves the hidden features at the clamped layer of what the first stretch computes from the
  arguments. Each stretch is read back as the composed term of its operations; nothing opens the gather, the
  scatter-adds or the transposes.
-/
import proofs.«178133_j7567732375847_1_alg».proof.Proof.Gen.KernelIdeal.Frame
import proofs.«178133_j7567732375847_1_alg».proof.Proof.KernelBlocks
import proofs.«178133_j7567732375847_1_alg».proof.Proof.Aggregate
import Idealize.ShloMosaic.Lib.StableHlo.Run

set_option maxRecDepth 16384

noncomputable section

namespace Cert.KernelIdeal.Whole

open Cert.KernelIdeal Cert.KernelIdeal.Gen Cert.KernelIdeal.Body Cert.KernelIdeal.Blocks Cert.KernelIdeal.Agg Cert.Sage
open Idealize.ShloMosaic Idealize.ShloMosaic.TcCoe Idealize.ShloMosaic.Tactic Idealize.ShloMosaic.StableHlo Idealize.ShloMosaic.ValueIdx
open Idealize.SL Idealize.SL.Sem

/-- A bias vector as the 1×128 row the kernels are handed. -/
def biasRow (b : (⟨S128, .f32⟩ : BufTy).Contents (Elt Ideal)) : (⟨S1x128, .f32⟩ : BufTy).Contents (Elt Ideal) :=
  shapeCast S1x128 b Facts₀.shapeCasts_S128_S1x128

/-- The hidden features: the clamped first layer of the aggregated and the own input features. -/
def hidden (x : (⟨S50000x128, .f32⟩ : BufTy).Contents (Elt Ideal)) (ei : (⟨S2x640000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal)) : (⟨S50000x128, .f32⟩ : BufTy).Contents (Elt Ideal) :=
  layer true (agg x ei) x (tr w1l) (tr w1r) (rowOf (biasRow b1))

/-- The result: the unclamped second layer of the aggregated and the own hidden features. -/
def out (x : (⟨S50000x128, .f32⟩ : BufTy).Contents (Elt Ideal)) (ei : (⟨S2x640000, .i32⟩ : BufTy).Contents (Elt Ideal))
    (w1l : (⟨S128x128, .f32⟩ : BufTy).Contents (Elt Ideal)) (b1 : (⟨S128, .f32⟩ : BufTy).Contents (Elt Ideal))
    (w1r w2l : (⟨S128x128, .f32⟩ : BufTy).Contents (Elt Ideal)) (b2 : (⟨S128, .f32⟩ : BufTy).Contents (Elt Ideal))
    (w2r : (⟨S128x128, .f32⟩ : BufTy).Contents (Elt Ideal)) : (⟨S50000x128, .f32⟩ : BufTy).Contents (Elt Ideal) :=
  layer false (agg (hidden x ei w1l b1 w1r) ei) (hidden x ei w1l b1 w1r) (tr w2l) (tr w2r) (rowOf (biasRow b2))

variable (m : (ℓ : Loc nD τ sig) → Buf (Elt Ideal) ℓ) (ρ : Dev nD → PrngReg)

/-! ## The first stretch of host operations, read back at the buffers the kernels and the second stretch use -/

set_option maxHeartbeats 8000000 in
theorem V1_v26 (c : Dev nD) : V1 m ρ c main_v26 = agg (m ((c : Thread nD τ).loc main_arg0)) (m ((c : Thread nD τ).loc main_arg1)) := by
  show StableHlo.after hostOps0 (W0 m ρ c) (Proc.devRef .tc main_v26) = _
  after_results_simp <;> rfl

set_option maxHeartbeats 8000000 in
theorem V1_arg0 (c : Dev nD) : V1 m ρ c main_arg0 = (m ((c : Thread nD τ).loc main_arg0)) := by
  show StableHlo.after hostOps0 (W0 m ρ c) (Proc.devRef .tc main_arg0) = _
  after_results_simp <;> rfl

set_option maxHeartbeats 8000000 in
theorem V1_v4 (c : Dev nD) : V1 m ρ c main_v4 = tr (m ((c : Thread nD τ).loc main_arg2)) := by
  show StableHlo.after hostOps0 (W0 m ρ c) (Proc.devRef .tc main_v4) = _
  after_results_simp <;> rfl

set_option maxHeartbeats 8000000 in
theorem V1_v5 (c : Dev nD) : V1 m ρ c main_v5 = tr (m ((c : Thread nD τ).loc main_arg4)) := by
  show StableHlo.after hostOps0 (W0 m ρ c) (Proc.devRef .tc main_v5) = _
  after_results_simp <;> rfl

set_option maxHeartbeats 8000000 in
theorem V1_v27 (c : Dev nD) : V1 m ρ c main_v27 = biasRow (m ((c : Thread nD τ).loc main_arg3)) := by
  show StableHlo.after hostOps0 (W0 m ρ c) (Proc.devRef .tc main_v27) = _
  after_results_simp <;> rfl

set_option maxHeartbeats 8000000 in
theorem W1_v1 (c : Dev nD) : W1 m ρ c (Proc.devRef .tc main_v1) = src (m ((c : Thread nD τ).loc main_arg1)) := by
  show StableHlo.after hostOps0 (W0 m ρ c) (Proc.devRef .tc main_v1) = _
  after_results_simp <;> rfl

set_option maxHeartbeats 8000000 in
theorem W1_v3 (c : Dev nD) : W1 m ρ c (Proc.devRef .tc main_v3) = dst (m ((c : Thread nD τ).loc main_arg1)) := by
  show StableHlo.after hostOps0 (W0 m ρ c) (Proc.devRef .tc main_v3) = _
  after_results_simp <;> rfl

set_option maxHeartbeats 8000000 in
theorem W1_v6 (c : Dev nD) : W1 m ρ c (Proc.devRef .tc main_v6) = tr (m ((c : Thread nD τ).loc main_arg5)) := by
  show StableHlo.after hostOps0 (W0 m ρ c) (Proc.devRef .tc main_v6) = _
  after_results_simp <;> rfl

set_option maxHeartbeats 8000000 in
theorem W1_v7 (c : Dev nD) : W1 m ρ c (Proc.devRef .tc main_v7) = tr (m ((c : Thread nD τ).loc main_arg7)) := by
  show StableHlo.after hostOps0 (W0 m ρ c) (Proc.devRef .tc main_v7) = _
  after_results_simp <;> rfl

set_option maxHeartbeats 8000000 in
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

/-! ## After the first kernel -/

/-- The first kernel leaves the hidden features in its output array. -/
theorem W2_v28 (c : Dev nD) : W2 m ρ c (Proc.devRef .tc main_v28)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (final0 (V1 m ρ) c)).trans ?_
  rw [V1_v26, V1_arg0, V1_v4, V1_v5, V1_v27]
  rfl

/-- The buffers the first kernel does not touch pass through it. -/
theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_v6 (c : Dev nD) : W2 m ρ c (Proc.devRef .tc main_v6) = tr (m ((c : Thread nD τ).loc main_arg5)) :=
  (W2_of_ne m ρ c main_v6 (by decide)).trans (W1_v6 m ρ c)
theorem W2_v7 (c : Dev nD) : W2 m ρ c (Proc.devRef .tc main_v7) = tr (m ((c : Thread nD τ).loc main_arg7)) :=
  (W2_of_ne m ρ c main_v7 (by decide)).trans (W1_v7 m ρ c)
theorem W2_arg6 (c : Dev nD) : W2 m ρ c (Proc.devRef .tc main_arg6) = (m ((c : Thread nD τ).loc main_arg6)) :=
  (W2_of_ne m ρ c main_arg6 (by decide)).trans (W1_arg6 m ρ c)

/-! ## The second stretch of host operations -/

set_option maxHeartbeats 8000000 in
theorem V3_v47 (c : Dev nD) : V3 m ρ c main_v47
    = aggOf (W2 m ρ c (Proc.devRef .tc main_v28)) (W2 m ρ c (Proc.devRef .tc main_v1)) (W2 m ρ c (Proc.devRef .tc main_v3)) := by
  show StableHlo.after hostOps1 (W2 m ρ c) (Proc.devRef .tc main_v47) = _
  after_results_simp <;> rfl

set_option maxHeartbeats 8000000 in
theorem V3_v28 (c : Dev nD) : V3 m ρ c main_v28 = W2 m ρ c (Proc.devRef .tc main_v28) := by
  show StableHlo.after hostOps1 (W2 m ρ c) (Proc.devRef .tc main_v28) = _
  after_results_simp <;> rfl

set_option maxHeartbeats 8000000 in
theorem V3_v6 (c : Dev nD) : V3 m ρ c main_v6 = W2 m ρ c (Proc.devRef .tc main_v6) := by
  show StableHlo.after hostOps1 (W2 m ρ c) (Proc.devRef .tc main_v6) = _
  after_results_simp <;> rfl

set_option maxHeartbeats 8000000 in
theorem V3_v7 (c : Dev nD) : V3 m ρ c main_v7 = W2 m ρ c (Proc.devRef .tc main_v7) := by
  show StableHlo.after hostOps1 (W2 m ρ c) (Proc.devRef .tc main_v7) = _
  after_results_simp <;> rfl

set_option maxHeartbeats 8000000 in
theorem V3_v48 (c : Dev nD) : V3 m ρ c main_v48 = biasRow (W2 m ρ c (Proc.devRef .tc main_arg6)) := by
  show StableHlo.after hostOps1 (W2 m ρ c) (Proc.devRef .tc main_v48) = _
  after_results_simp <;> rfl

/-! ## After the second kernel -/

/-- The result array after the run is `out` of the eight arguments. -/
theorem W4_v49 (c : Dev nD) : W4 m ρ c (Proc.devRef .tc main_v49)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (final1 (V3 m ρ) c)).trans ?_
  rw [V3_v47, V3_v28, V3_v6, V3_v7, V3_v48, W2_v28, W2_v1, W2_v3, W2_v6, W2_v7, W2_arg6]
  rfl

end Cert.KernelIdeal.Whole

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.RefValue.lean ====
/-
  The reference's result as one function of its arguments.

  The reference spells a layer on the host: a product of the aggregated features with the transposed left weight, the
  bias vector broadcast to every row and added, then the product of the own features with the transposed right weight
  added — the bias BETWEEN the two products. Entry by entry that is the specification's layer, by the two products read
  as sums over the contracted lane, the broadcast bias read at its lane, and the one regrouping of a three-term sum.
  The aggregations and the transposes stay the named host chains; the hidden features are carried as one array.
-/
import proofs.«178133_j7567732375847_1_alg».proof.Proof.Gen.ReferenceIdeal.Read
import proofs.«178133_j7567732375847_1_alg».proof.Proof.LibTwoBranch
import proofs.«178133_j7567732375847_1_alg».proof.Proof.Aggregate
import proofs.«178133_j7567732375847_1_alg».proof.Proof.LibPlainDot
import proofs.«178133_j7567732375847_1_alg».proof.Proof.LibRowInDim
import proofs.«178133_j7567732375847_1_alg».proof.Proof.LibRowOfVector

noncomputable section

open scoped BigOperators

namespace Cert.ReferenceIdeal.RefValue

open Cert.ReferenceIdeal Cert.ReferenceIdeal.Facts₀ Cert.ReferenceIdeal.Read Cert.ReferenceIdeal.Agg Cert.Sage
open Idealize.ShloMosaic Idealize.ShloMosaic.ValueIdx

/-- A bias vector's entries as a function of the lane. -/
def vecOf (b : (⟨S128, .f32⟩ : BufTy).Contents (Elt Ideal)) : Fin 128 → EReal := fun k => b (ix1 k)

/-- The host's spelling of a layer before any clamp: (A·Wl + bias on every row) + X·Wr. -/
def hostLin (A X : (⟨S50000x128, .f32⟩ : BufTy).Contents (Elt Ideal)) (Wl Wr : (⟨S128x128, .f32⟩ : BufTy).Contents (Elt Ideal))
    (b : (⟨S128, .f32⟩ : BufTy).Contents (Elt Ideal)) : (⟨S50000x128, .f32⟩ : BufTy).Contents (Elt Ideal) :=
  addf (F := Ideal)
    (addf (F := Ideal) (Host.dotGeneral (F := Ideal) (φ₁ := .f32) (φ₂ := .f32) dot_S50000x128_S128x128_S50000x128_1_0_0_1_n_n none A Wl)
      (broadcastInDim S50000x128 ![0, 1] bcast_S1x128_S50000x128_0_1 (broadcastInDim S1x128 ![1] bcast_S128_S1x128_1 b)))
    (Host.dotGeneral (F := Ideal) (φ₁ := .f32) (φ₂ := .f32) dot_S50000x128_S128x128_S50000x128_1_0_0_1_n_n none X Wr)

/-- At entry (p, j) the host's spelling is the specification's layer entry. -/
theorem hostLin_apply (A X : (⟨S50000x128, .f32⟩ : BufTy).Contents (Elt Ideal)) (Wl Wr : (⟨S128x128, .f32⟩ : BufTy).Contents (Elt Ideal))
    (b : (⟨S128, .f32⟩ : BufTy).Contents (Elt Ideal)) (p : Fin 50000) (j : Fin 128) :
    hostLin A X Wl Wr b (ix2 p j) = linAt A X Wl Wr (vecOf b) p j := by
  unfold hostLin
  simp only [Host.dotGeneral]
  rw [addf_apply, addf_apply,
    PlainDot.dotGeneral_apply dot_S50000x128_S128x128_S50000x128_1_0_0_1_n_n rfl,
    PlainDot.dotGeneral_apply dot_S50000x128_S128x128_S50000x128_1_0_0_1_n_n rfl,
    RowInDim.broadcastInDim_rows (by decide), RowOfVector.broadcastInDim_row (by decide)]
  exact (biasLast_eq_biasMiddle A X Wl Wr (vecOf b) p j).symm

variable (x0 : (⟨S50000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The first layer before its clamp, in the reference's stages: the host's spelling over the aggregated input features. -/
theorem v30_eq : val_main_v30 (F := Ideal) x0 x1 x2 x3 x4 = hostLin (agg x0 x1) x0 (tr x2) (tr x4) x3 := rfl

/-- The reference's hidden features are the clamped layer. -/
theorem v31_eq : val_main_v31 (F := Ideal) x0 x1 x2 x3 x4 = layer true (agg x0 x1) x0 (tr x2) (tr x4) (vecOf x3) := by
  funext i
  obtain ⟨p, j, rfl⟩ : ∃ (p : Fin 50000) (j : Fin 128), i = ix2 p j := ⟨i 0, i 1, eq_ix2 i⟩
  rw [val_main_v31_apply, val_main_call0_v0_apply, val_main_call0_cst_apply, v30_eq, hostLin_apply, layer_apply, if_pos rfl]
  rfl

/-- The second layer in the reference's stages: the host's spelling over the aggregated hidden features, the hidden
    features carried as one array. -/
theorem v58_host : val_main_v58 (F := Ideal) x0 x1 x2 x3 x4 x5 x6 x7
    = hostLin (agg (val_main_v31 (F := Ideal) x0 x1 x2 x3 x4) x1) (val_main_v31 (F := Ideal) x0 x1 x2 x3 x4) (tr x5) (tr x7) x6 := rfl

/-- The reference's result: the unclamped second layer of the aggregated and the own hidden features. -/
theorem v58_eq : val_main_v58 (F := Ideal) x0 x1 x2 x3 x4 x5 x6 x7
    = layer false (agg (layer true (agg x0 x1) x0 (tr x2) (tr x4) (vecOf x3)) x1) (layer true (agg x0 x1) x0 (tr x2) (tr x4) (vecOf x3))
        (tr x5) (tr x7) (vecOf x6) := by
  rw [v58_host, v31_eq]
  funext i
  obtain ⟨p, j, rfl⟩ : ∃ (p : Fin 50000) (j : Fin 128), i = ix2 p j := ⟨i 0, i 1, eq_ix2 i⟩
  rw [hostLin_apply, layer_apply, if_neg Bool.false_ne_true]

end Cert.ReferenceIdeal.RefValue

end
-- ==== Proof.lean ====
/-
  A two-layer mean-aggregation graph network on 50000 nodes with 128 features and 640000 edges: the kernel program
  against its plain reference, over the extended reals.

  Both programs form, for a feature array, the mean of every node's in-neighbours' rows by the same host operations
  (gather by edge source, add by edge target, divide by the larger of the in-degree and one), and both apply to the pair
  (aggregated row, own row) of a node the affine map  agg·Wlᵀ + own·Wrᵀ + bias,  clamped below at zero after the first
  layer; the second layer does the same to the hidden features. The kernel program computes each layer in a kernel over
  ten blocks of 5000 rows, with the bias added after both products; the reference adds the bias between them. Entry by
  entry the two are the same three-term sum regrouped, which holds on the extended reals with nothing assumed finite:
  the precondition is never opened.

  The run of the kernel program with its result named, the row blocks assembled into whole arrays, and the two
  stretches of host operations read back are the modules imported below; the reference's run is the imported run over
  its operations. The kernel program's idealization rewrote nothing, so that conjunct is trivially true.
-/
import proofs.«178133_j7567732375847_1_alg».proof.Defs
import proofs.«178133_j7567732375847_1_alg».proof.Proof.Gen.Kernel
import proofs.«178133_j7567732375847_1_alg».proof.Proof.Gen.Kernel.Skeleton
import proofs.«178133_j7567732375847_1_alg».proof.Proof.Gen.Kernel.Launch
import proofs.«178133_j7567732375847_1_alg».proof.Proof.Gen.Kernel.Points
import proofs.«178133_j7567732375847_1_alg».proof.Proof.Gen.Kernel.Frame
import proofs.«178133_j7567732375847_1_alg».proof.Proof.Gen.KernelIdeal
import proofs.«178133_j7567732375847_1_alg».proof.Proof.Gen.KernelIdeal.Skeleton
import proofs.«178133_j7567732375847_1_alg».proof.Proof.Gen.KernelIdeal.Launch
import proofs.«178133_j7567732375847_1_alg».proof.Proof.Gen.KernelIdeal.Points
import proofs.«178133_j7567732375847_1_alg».proof.Proof.Gen.KernelIdeal.Frame
import proofs.«178133_j7567732375847_1_alg».proof.Proof.Gen.ReferenceIdeal
import proofs.«178133_j7567732375847_1_alg».proof.Proof.Gen.ReferenceIdeal.Run
import proofs.«178133_j7567732375847_1_alg».proof.Proof.Gen.ReferenceIdeal.Read
import proofs.«178133_j7567732375847_1_alg».proof.Proof.Gen.Pre_finite_inputs
import proofs.«178133_j7567732375847_1_alg».proof.Proof.KernelRun
import proofs.«178133_j7567732375847_1_alg».proof.Proof.KernelValue
import proofs.«178133_j7567732375847_1_alg».proof.Proof.RefValue
import proofs.«178133_j7567732375847_1_alg».proof.Proof.LibRowOfVector
import Idealize.ShloMosaic.Adequacy
import Idealize.ShloMosaic.Init

noncomputable section

namespace Cert.Proof

open Idealize.ShloMosaic Idealize.ShloMosaic.ValueIdx Idealize.SL.Sem

/-- A bias vector read lane by lane is the 1×128 row made of it read at (0, lane). -/
theorem bias_eq (b : (⟨Cert.ReferenceIdeal.S128, .f32⟩ : BufTy).Contents (Elt Ideal)) :
    Cert.ReferenceIdeal.RefValue.vecOf b = Cert.KernelIdeal.Body.rowOf (Cert.KernelIdeal.Whole.biasRow b) := by
  funext k
  exact (Cert.RowOfVector.shapeCast_row b _ (0 : Fin 1) k).symm

/-- The reference's result and the kernel program's are one function of the eight arguments. -/
theorem result_eq (x0 : (⟨Cert.ReferenceIdeal.S50000x128, .f32⟩ : BufTy).Contents (Elt Ideal))
    (x1 : (⟨Cert.ReferenceIdeal.S2x640000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x128, .f32⟩ : BufTy).Contents (Elt Ideal)) :
    Cert.ReferenceIdeal.Read.val_main_v58 (F := Ideal) x0 x1 x2 x3 x4 x5 x6 x7
      = Cert.KernelIdeal.Whole.out x0 x1 x2 x3 x4 x5 x6 x7 := by
  rw [Cert.ReferenceIdeal.RefValue.v58_eq]
  unfold Cert.KernelIdeal.Whole.out Cert.KernelIdeal.Whole.hidden
  simp only [Cert.Shared.agg_eq, Cert.Shared.tr_eq, bias_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end, and their results are the same array of extended reals:
    the kernel program's is `out` of its arguments, the reference's is its last stage of its own, and the two are one
    function (`result_eq`). -/
theorem algebraic : Cert.algebraic_KernelIdeal_ReferenceIdeal := by
  intro m ρ m' ρ' _ hagree
  refine ⟨fun c => Cert.KernelIdeal.Whole.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.W4_v49 m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
